-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S6x16 : Shape := ⟨2, ![6, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S3200000 : Shape := ⟨1, ![3200000]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x16 : S_.BroadcastsInDim S6x16 (![] : Fin 0 → Fin S6x16.rank)
  reducesTo_S6x16_S_d0_1 : S6x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S16 .f32) (main_arg5 : FVec F S16x1 .f32) (main_arg6 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg5
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x6 .f32) (main_arg1 : FVec F S6x16 .f32) (main_arg2 : FVec F S16 .f32) (main_arg3 : FVec F S16x16 .f32) (main_arg4 : FVec F S16 .f32) (main_arg5 : FVec F S16x1 .f32) (main_arg6 : FVec F S1 .f32) (main_arg7 : IVec S3200000 32) (main_arg8 : IVec S3200000 32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x16 .f32 := Host.absf main_arg1
  let main_cst_0 : FVec F S_ .f32 := constant S_ .f32 0x7F800000#32
  let main_v5 : FVec F S6x16 .f32 := broadcastInDim S6x16 ![] bcast_S_S6x16 main_cst_0
  let main_v6 : IVec S6x16 1 := cmpf .olt main_v4 main_v5
  let main_c_1 : IVec S_ 1 := constantI S_ 1 1#1
  let main_v7 : IVec S_ 1 := (fun x v => Host.reduce IntOp.andi x v reducesTo_S6x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_arg6 main_v13 main_v16
-- ==== Kernel.lean ====
abbrev S100000x6 : Shape := ⟨2, ![100000, 6]⟩
abbrev S6x16 : Shape := ⟨2, ![6, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x6 : Shape := ⟨2, ![3200000, 6]⟩
abbrev S1x16 : Shape := ⟨2, ![1, 16]⟩
abbrev S100000x16 : Shape := ⟨2, ![100000, 16]⟩
abbrev S5000x6 : Shape := ⟨2, ![5000, 6]⟩
abbrev S5000x16 : Shape := ⟨2, ![5000, 16]⟩
abbrev S3200000x16 : Shape := ⟨2, ![3200000, 16]⟩
abbrev S1x1 : Shape := ⟨2, ![1, 1]⟩
abbrev S5000x1 : Shape := ⟨2, ![5000, 1]⟩

abbrev nBuf : Space → Nat
  | .hbm => 79
  | .vmem => 14
  | .smem => 0
  | _ => 0

abbrev bufTy : (tb : Table) → Fin (tcTables nBuf tb) → BufTy
  | .hbm, ⟨0, _⟩ => ⟨S100000x6, .f32⟩
  | .hbm, ⟨1, _⟩ => ⟨S6x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S3200000, .i32⟩
  | .hbm, ⟨8, _⟩ => ⟨S3200000, .i32⟩
  | .hbm, ⟨9, _⟩ => ⟨S_, .f32⟩
  | .hbm, ⟨10, _⟩ => ⟨S3200000, .f32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S3200000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x6, .f32⟩
  | .hbm, ⟨37, _⟩ => ⟨S100000x6, .f32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3200000x6, .f32⟩
  | .hbm, ⟨47, _⟩ => ⟨S_, .f32⟩
  | .hbm, ⟨48, _⟩ => ⟨S100000x6, .f32⟩
  | .hbm, ⟨49, _⟩ => ⟨S3200000x1, .i32⟩
  | .hbm, ⟨50, _⟩ => ⟨S100000x6, .f32⟩
  | .hbm, ⟨51, _⟩ => ⟨S100000x1, .f32⟩
  | .hbm, ⟨52, _⟩ => ⟨S100000x6, .f32⟩
  | .hbm, ⟨53, _⟩ => ⟨S100000x6, .f32⟩
  | .hbm, ⟨54, _⟩ => ⟨S1x16, .f32⟩
  | .hbm, ⟨55, _⟩ => ⟨S100000x16, .f32⟩
  | .hbm, ⟨56, _⟩ => ⟨S100000x1, .f32⟩
  | .hbm, ⟨57, _⟩ => ⟨S100000x16, .f32⟩
  | .hbm, ⟨58, _⟩ => ⟨S100000x16, .f32⟩
  | .hbm, ⟨59, _⟩ => ⟨S_, .i32⟩
  | .hbm, ⟨60, _⟩ => ⟨S3200000, .i32⟩
  | .hbm, ⟨61, _⟩ => ⟨S3200000, .i1⟩
  | .hbm, ⟨62, _⟩ => ⟨S_, .i32⟩
  | .hbm, ⟨63, _⟩ => ⟨S3200000, .i32⟩
  | .hbm, ⟨64, _⟩ => ⟨S3200000, .i32⟩
  | .hbm, ⟨65, _⟩ => ⟨S3200000, .i32⟩
  | .hbm, ⟨66, _⟩ => ⟨S3200000x1, .i32⟩
  | .hbm, ⟨67, _⟩ => ⟨S3200000x16, .f32⟩
  | .hbm, ⟨68, _⟩ => ⟨S_, .f32⟩
  | .hbm, ⟨69, _⟩ => ⟨S100000x16, .f32⟩
  | .hbm, ⟨70, _⟩ => ⟨S3200000x1, .i32⟩
  | .hbm, ⟨71, _⟩ => ⟨S100000x16, .f32⟩
  | .hbm, ⟨72, _⟩ => ⟨S100000x1, .f32⟩
  | .hbm, ⟨73, _⟩ => ⟨S100000x16, .f32⟩
  | .hbm, ⟨74, _⟩ => ⟨S100000x16, .f32⟩
  | .hbm, ⟨75, _⟩ => ⟨S1x16, .f32⟩
  | .hbm, ⟨76, _⟩ => ⟨S1x1, .f32⟩
  | .hbm, ⟨77, _⟩ => ⟨S100000x1, .f32⟩
  | .hbm, ⟨78, _⟩ => ⟨S100000, .f32⟩
  | .local _ .vmem, ⟨0, _⟩ => ⟨S5000x6, .f32⟩
  | .local _ .vmem, ⟨1, _⟩ => ⟨S5000x6, .f32⟩
  | .local _ .vmem, ⟨2, _⟩ => ⟨S6x16, .f32⟩
  | .local _ .vmem, ⟨3, _⟩ => ⟨S1x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S16x16, .f32⟩
  | .local _ .vmem, ⟨9, _⟩ => ⟨S1x16, .f32⟩
  | .local _ .vmem, ⟨10, _⟩ => ⟨S16x1, .f32⟩
  | .local _ .vmem, ⟨11, _⟩ => ⟨S1x1, .f32⟩
  | .local _ .vmem, ⟨12, _⟩ => ⟨S5000x1, .f32⟩
  | .local _ .vmem, ⟨13, _⟩ => ⟨S5000x1, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x6_0_1 : S100000x1.BroadcastsInDim S100000x6 (![0, 1] : Fin 2 → Fin S100000x6.rank)
  bcast_S_S100000x6 : S_.BroadcastsInDim S100000x6 (![] : Fin 0 → Fin S100000x6.rank)
  shapeCasts_S16_S1x16 : S16.ShapeCasts S1x16
  inb_S5000x6_S5000x6_0_0 : ∀ a, (![0, 0] : Fin 2 → Nat) a + S5000x6.size a ≤ S5000x6.size a
  h_S5000x6 : 0 < S5000x6.numel
  shapeCasts_S5000x6_S5000x6 : S5000x6.ShapeCasts S5000x6
  bitsLt_bf16_f32 : FTy.bits .bf16 < FTy.bits .f32
  inb_S6x16_S6x16_0_0 : ∀ a, (![0, 0] : Fin 2 → Nat) a + S6x16.size a ≤ S6x16.size a
  h_S6x16 : 0 < S6x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S100000x1_S100000x16_0_1 : S100000x1.BroadcastsInDim S100000x16 (![0, 1] : Fin 2 → Fin S100000x16.rank)
  bcast_S_S100000x16 : S_.BroadcastsInDim S100000x16 (![] : Fin 0 → Fin S100000x16.rank)
  shapeCasts_S1_S1x1 : S1.ShapeCasts S1x1
  shapeCasts_S5000x16_S5000x16 : S5000x16.ShapeCasts S5000x16
  inb_S16x16_S16x16_0_0 : ∀ a, (![0, 0] : Fin 2 → Nat) a + S16x16.size a ≤ S16x16.size a
  h_S16x16 : 0 < S16x16.numel
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S3200000x1_S3200000_n_0_0_1_wf : ScatterDims.WF S100000 S3200000x1 S3200000 [] [0] [0] 1
  gather_S100000x6_S3200000x1_S3200000x6_1_0_n_n_0_1_16_wf : GatherDims.WF S100000x6 S3200000x1 S3200000x6 [1] [0] [] [0] [] 1 ![1, 6]
  scatter_S100000x6_S3200000x1_S3200000x6_1_0_0_1_wf : ScatterDims.WF S100000x6 S3200000x1 S3200000x6 [1] [0] [0] 1
  dot_S5000x6_S6x16_S5000x16_1_0_0_1_n_n_wf : DotDims.WF S5000x6 S6x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x16_S5000x16_1_0_0_1_n_n_wf : DotDims.WF S5000x16 S16x16 S5000x16 [1] [0] [0] [1] [] []
  dot_S5000x16_S16x1_S5000x1_1_0_0_1_n_n_wf : DotDims.WF S5000x16 S16x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x6.size a ≤ S100000x6.size a
  hwx0_0 : ∀ i : grid0.Coords, EltTy.bits .f32 = 32 ∨ (Rect.block (s := S100000x6) S5000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x16.size a ≤ S6x16.size a
  hwx0_1 : ∀ i : grid0.Coords, EltTy.bits .f32 = 32 ∨ (Rect.block (s := S6x16) S6x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x16.size a ≤ S16x16.size a
  hwx1_1 : ∀ i : grid1.Coords, EltTy.bits .f32 = 32 ∨ (Rect.block (s := S16x16) S16x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x1.size a ≤ S16x1.size a
  hwx1_3 : ∀ i : grid1.Coords, EltTy.bits .f32 = 32 ∨ (Rect.block (s := S16x1) S16x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S100000x1.size a
  hwx1_5 : ∀ i : grid1.Coords, EltTy.bits .f32 = 32 ∨ (Rect.block (s := S100000x1) S5000x1.size (cc1_transform_5 i) (hinb1_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x6_S3200000x1_S3200000x6_1_0_n_n_0_1_16 : GatherDims S100000x6 S3200000x1 S3200000x6 where
  offsetDims := [1]
  collapsedSliceDims := [0]
  operandBatchingDims := []
  startIndicesBatchingDims := []
  startIndexMap := [0]
  indexVectorDim := 1
  sliceSizes := ![1, 6]
  wf := gather_S100000x6_S3200000x1_S3200000x6_1_0_n_n_0_1_16_wf
def scatter_S100000x6_S3200000x1_S3200000x6_1_0_0_1 : ScatterDims S100000x6 S3200000x1 S3200000x6 where
  updateWindowDims := [1]
  insertedWindowDims := [0]
  scatterDimsToOperandDims := [0]
  indexVectorDim := 1
  wf := scatter_S100000x6_S3200000x1_S3200000x6_1_0_0_1_wf
def dot_S5000x6_S6x16_S5000x16_1_0_0_1_n_n : DotDims S5000x6 S6x16 S5000x16 where
  lhsContracting := [1]
  rhsContracting := [0]
  lhsNonContracting := [0]
  rhsNonContracting := [1]
  lhsBatch := []
  rhsBatch := []
  wf := dot_S5000x6_S6x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf

abbrev win0_0 : Pipeline.Window sig grid0 :=
  Pipeline.Window.ofSpec (Memref.whole main_v30) S5000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S16x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S5000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x6 : Shape := ⟨2, ![100000, 6]⟩
abbrev S6x16 : Shape := ⟨2, ![6, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x6 : Shape := ⟨2, ![3200000, 6]⟩
abbrev S100000x16 : Shape := ⟨2, ![100000, 16]⟩
abbrev S1x16 : Shape := ⟨2, ![1, 16]⟩
abbrev S3200000x16 : Shape := ⟨2, ![3200000, 16]⟩
abbrev S1x1 : Shape := ⟨2, ![1, 1]⟩

abbrev nBuf : Space → Nat
  | .hbm => 92
  | .vmem => 0
  | .smem => 0
  | _ => 0

abbrev bufTy : (tb : Table) → Fin (tcTables nBuf tb) → BufTy
  | .hbm, ⟨0, _⟩ => ⟨S100000x6, .f32⟩
  | .hbm, ⟨1, _⟩ => ⟨S6x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S3200000, .i32⟩
  | .hbm, ⟨8, _⟩ => ⟨S3200000, .i32⟩
  | .hbm, ⟨9, _⟩ => ⟨S_, .f32⟩
  | .hbm, ⟨10, _⟩ => ⟨S3200000, .f32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S3200000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x6, .f32⟩
  | .hbm, ⟨37, _⟩ => ⟨S100000x6, .f32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3200000x6, .f32⟩
  | .hbm, ⟨47, _⟩ => ⟨S_, .f32⟩
  | .hbm, ⟨48, _⟩ => ⟨S100000x6, .f32⟩
  | .hbm, ⟨49, _⟩ => ⟨S3200000x1, .i32⟩
  | .hbm, ⟨50, _⟩ => ⟨S100000x6, .f32⟩
  | .hbm, ⟨51, _⟩ => ⟨S100000x1, .f32⟩
  | .hbm, ⟨52, _⟩ => ⟨S100000x6, .f32⟩
  | .hbm, ⟨53, _⟩ => ⟨S100000x6, .f32⟩
  | .hbm, ⟨54, _⟩ => ⟨S100000x16, .f32⟩
  | .hbm, ⟨55, _⟩ => ⟨S1x16, .f32⟩
  | .hbm, ⟨56, _⟩ => ⟨S100000x16, .f32⟩
  | .hbm, ⟨57, _⟩ => ⟨S100000x16, .f32⟩
  | .hbm, ⟨58, _⟩ => ⟨S_, .f32⟩
  | .hbm, ⟨59, _⟩ => ⟨S100000x16, .f32⟩
  | .hbm, ⟨60, _⟩ => ⟨S100000x16, .f32⟩
  | .hbm, ⟨61, _⟩ => ⟨S100000x1, .f32⟩
  | .hbm, ⟨62, _⟩ => ⟨S100000x16, .f32⟩
  | .hbm, ⟨63, _⟩ => ⟨S100000x16, .f32⟩
  | .hbm, ⟨64, _⟩ => ⟨S_, .i32⟩
  | .hbm, ⟨65, _⟩ => ⟨S3200000, .i32⟩
  | .hbm, ⟨66, _⟩ => ⟨S3200000, .i1⟩
  | .hbm, ⟨67, _⟩ => ⟨S_, .i32⟩
  | .hbm, ⟨68, _⟩ => ⟨S3200000, .i32⟩
  | .hbm, ⟨69, _⟩ => ⟨S3200000, .i32⟩
  | .hbm, ⟨70, _⟩ => ⟨S3200000, .i32⟩
  | .hbm, ⟨71, _⟩ => ⟨S3200000x1, .i32⟩
  | .hbm, ⟨72, _⟩ => ⟨S3200000x16, .f32⟩
  | .hbm, ⟨73, _⟩ => ⟨S_, .f32⟩
  | .hbm, ⟨74, _⟩ => ⟨S100000x16, .f32⟩
  | .hbm, ⟨75, _⟩ => ⟨S3200000x1, .i32⟩
  | .hbm, ⟨76, _⟩ => ⟨S100000x16, .f32⟩
  | .hbm, ⟨77, _⟩ => ⟨S100000x1, .f32⟩
  | .hbm, ⟨78, _⟩ => ⟨S100000x16, .f32⟩
  | .hbm, ⟨79, _⟩ => ⟨S100000x16, .f32⟩
  | .hbm, ⟨80, _⟩ => ⟨S100000x16, .f32⟩
  | .hbm, ⟨81, _⟩ => ⟨S1x16, .f32⟩
  | .hbm, ⟨82, _⟩ => ⟨S100000x16, .f32⟩
  | .hbm, ⟨83, _⟩ => ⟨S100000x16, .f32⟩
  | .hbm, ⟨84, _⟩ => ⟨S_, .f32⟩
  | .hbm, ⟨85, _⟩ => ⟨S100000x16, .f32⟩
  | .hbm, ⟨86, _⟩ => ⟨S100000x16, .f32⟩
  | .hbm, ⟨87, _⟩ => ⟨S100000x1, .f32⟩
  | .hbm, ⟨88, _⟩ => ⟨S1x1, .f32⟩
  | .hbm, ⟨89, _⟩ => ⟨S100000x1, .f32⟩
  | .hbm, ⟨90, _⟩ => ⟨S100000x1, .f32⟩
  | .hbm, ⟨91, _⟩ => ⟨S100000, .f32⟩
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call2_cst : Ref sig .tc := ⟨.hbm, 58, rfl⟩
abbrev main_call2_v0 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_8 : Ref sig .tc := ⟨.hbm, 64, rfl⟩
abbrev main_v39 : Ref sig .tc := ⟨.hbm, 65, rfl⟩
abbrev main_v40 : Ref sig .tc := ⟨.hbm, 66, rfl⟩
abbrev main_c_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call3_cst : Ref sig .tc := ⟨.hbm, 84, rfl⟩
abbrev main_call3_v0 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x6_0_1 : S100000x1.BroadcastsInDim S100000x6 (![0, 1] : Fin 2 → Fin S100000x6.rank)
  bcast_S_S100000x6 : S_.BroadcastsInDim S100000x6 (![] : Fin 0 → Fin S100000x6.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3200000x1_S3200000_n_0_0_1_wf : ScatterDims.WF S100000 S3200000x1 S3200000 [] [0] [0] 1
  gather_S100000x6_S3200000x1_S3200000x6_1_0_n_n_0_1_16_wf : GatherDims.WF S100000x6 S3200000x1 S3200000x6 [1] [0] [] [0] [] 1 ![1, 6]
  scatter_S100000x6_S3200000x1_S3200000x6_1_0_0_1_wf : ScatterDims.WF S100000x6 S3200000x1 S3200000x6 [1] [0] [0] 1
  dot_S100000x6_S6x16_S100000x16_1_0_0_1_n_n_wf : DotDims.WF S100000x6 S6x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S100000x16_S16x1_S100000x1_1_0_0_1_n_n_wf : DotDims.WF S100000x16 S16x1 S100000x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x6_S3200000x1_S3200000x6_1_0_n_n_0_1_16 : GatherDims S100000x6 S3200000x1 S3200000x6 where
  offsetDims := [1]
  collapsedSliceDims := [0]
  operandBatchingDims := []
  startIndicesBatchingDims := []
  startIndexMap := [0]
  indexVectorDim := 1
  sliceSizes := ![1, 6]
  wf := gather_S100000x6_S3200000x1_S3200000x6_1_0_n_n_0_1_16_wf
def scatter_S100000x6_S3200000x1_S3200000x6_1_0_0_1 : ScatterDims S100000x6 S3200000x1 S3200000x6 where
  updateWindowDims := [1]
  insertedWindowDims := [0]
  scatterDimsToOperandDims := [0]
  indexVectorDim := 1
  wf := scatter_S100000x6_S3200000x1_S3200000x6_1_0_0_1_wf
def dot_S100000x6_S6x16_S100000x16_1_0_0_1_n_n : DotDims S100000x6 S6x16 S100000x16 where
  lhsContracting := [1]
  rhsContracting := [0]
  lhsNonContracting := [0]
  rhsNonContracting := [1]
  lhsBatch := []
  rhsBatch := []
  wf := dot_S100000x6_S6x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.KernelRun.lean ====
/-
  The idealized kernel program's run with its RESULT named. @main is nine segments — five stretches of host operations,
  the first dense layer's pipeline, a stretch of host operations, the second layer's pipeline with the linear head, and
  the final reshape —, and every weakly fair execution from a memory with zero counters ends with each unscoped buffer
  at the fold of those segments over the launch memory. Read at the result buffer this says what the program returns:
  the last stretch's reshape applied to what the second pipeline's write-backs leave; read at an argument it says the
  argument is unchanged.
-/
import proofs.«178030_j21002390078175_1_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the segments' fold
    over the launch memory (`W9`) and every argument as launched: the launch over the nine segments, the last thread
    state read against the final state, the result read where the arguments are. -/
theorem run_result : θ_run defs (onTc (τ := τ) (main (F := F))) ⟨m, fun _ => 0, ρ⟩ (fun r => ∀ c : Dev nD,
      r.2.mem ((c.tc : Thread nD τ).loc main_v52) = W9 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v52 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.RunResult

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.KernelPayload.lean ====
/-
  What the two kernel bodies store, read at an index. The first body stores relu(x·w + b) of its [5000, 6] block x, the
  [6, 16] weights w and the [1, 16] bias row b; the second stores relu(x·w₂ + b₂)·wₗ + bₗ of its [5000, 16] block. At the
  extended reals the roundings to bf16 on the way into each product are the identity, a product into the zero accumulator
  is the plain sum over the contracted axis, and a [1, n] row broadcast over the rows reads the row: so each stored entry
  is the textbook expression of the loaded blocks' entries.
-/
import proofs.«178030_j21002390078175_1_alg».proof.Proof.Gen.KernelIdeal.Skeleton
import proofs.«178030_j21002390078175_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- `dot_S5000x6_S6x16_S5000x16_1_0_0_1_n_n` contracts the left operand's axis 1 with the right operand's axis 0 and has no batch axis. -/
theorem plain6 : PlainDot.IsPlain (M := 5000) (K := 6) (N := 16) dot_S5000x6_S6x16_S5000x16_1_0_0_1_n_n where
  rank := rfl
  size := rfl
  lhs0 := fun i q => by
    unfold DotDims.lhsIdx
    rw [dif_neg (show ¬(0 : Fin S5000x6.rank) ∈ dot_S5000x6_S6x16_S5000x16_1_0_0_1_n_n.lhsBatch by decide), dif_pos (show (0 : Fin S5000x6.rank) ∈ dot_S5000x6_S6x16_S5000x16_1_0_0_1_n_n.lhsNonContracting by decide)]
    rfl
  lhs1 := fun i q => dot_S5000x6_S6x16_S5000x16_1_0_0_1_n_n.lhsIdx_val_of_single rfl i q
  rhs0 := fun i q => dot_S5000x6_S6x16_S5000x16_1_0_0_1_n_n.rhsIdx_val_of_single rfl i q
  rhs1 := fun i q => by
    unfold DotDims.rhsIdx
    rw [dif_neg (show ¬(1 : Fin S6x16.rank) ∈ dot_S5000x6_S6x16_S5000x16_1_0_0_1_n_n.rhsBatch by decide), dif_pos (show (1 : Fin S6x16.rank) ∈ dot_S5000x6_S6x16_S5000x16_1_0_0_1_n_n.rhsNonContracting by decide)]
    rfl

/-- `dot_S5000x16_S16x16_S5000x16_1_0_0_1_n_n` contracts the left operand's axis 1 with the right operand's axis 0 and has no batch axis. -/
theorem plain16 : PlainDot.IsPlain (M := 5000) (K := 16) (N := 16) dot_S5000x16_S16x16_S5000x16_1_0_0_1_n_n where
  rank := rfl
  size := rfl
  lhs0 := fun i q => by
    unfold DotDims.lhsIdx
    rw [dif_neg (show ¬(0 : Fin S5000x16.rank) ∈ dot_S5000x16_S16x16_S5000x16_1_0_0_1_n_n.lhsBatch by decide), dif_pos (show (0 : Fin S5000x16.rank) ∈ dot_S5000x16_S16x16_S5000x16_1_0_0_1_n_n.lhsNonContracting by decide)]
    rfl
  lhs1 := fun i q => dot_S5000x16_S16x16_S5000x16_1_0_0_1_n_n.lhsIdx_val_of_single rfl i q
  rhs0 := fun i q => dot_S5000x16_S16x16_S5000x16_1_0_0_1_n_n.rhsIdx_val_of_single rfl i q
  rhs1 := fun i q => by
    unfold DotDims.rhsIdx
    rw [dif_neg (show ¬(1 : Fin S16x16.rank) ∈ dot_S5000x16_S16x16_S5000x16_1_0_0_1_n_n.rhsBatch by decide), dif_pos (show (1 : Fin S16x16.rank) ∈ dot_S5000x16_S16x16_S5000x16_1_0_0_1_n_n.rhsNonContracting by decide)]
    rfl

/-- `dot_S5000x16_S16x1_S5000x1_1_0_0_1_n_n` contracts the left operand's axis 1 with the right operand's axis 0 and has no batch axis. -/
theorem plain1 : PlainDot.IsPlain (M := 5000) (K := 16) (N := 1) dot_S5000x16_S16x1_S5000x1_1_0_0_1_n_n where
  rank := rfl
  size := rfl
  lhs0 := fun i q => by
    unfold DotDims.lhsIdx
    rw [dif_neg (show ¬(0 : Fin S5000x16.rank) ∈ dot_S5000x16_S16x1_S5000x1_1_0_0_1_n_n.lhsBatch by decide), dif_pos (show (0 : Fin S5000x16.rank) ∈ dot_S5000x16_S16x1_S5000x1_1_0_0_1_n_n.lhsNonContracting by decide)]
    rfl
  lhs1 := fun i q => dot_S5000x16_S16x1_S5000x1_1_0_0_1_n_n.lhsIdx_val_of_single rfl i q
  rhs0 := fun i q => dot_S5000x16_S16x1_S5000x1_1_0_0_1_n_n.rhsIdx_val_of_single rfl i q
  rhs1 := fun i q => by
    unfold DotDims.rhsIdx
    rw [dif_neg (show ¬(1 : Fin S16x1.rank) ∈ dot_S5000x16_S16x1_S5000x1_1_0_0_1_n_n.rhsBatch by decide), dif_pos (show (1 : Fin S16x1.rank) ∈ dot_S5000x16_S16x1_S5000x1_1_0_0_1_n_n.rhsNonContracting by decide)]
    rfl

/-- The first body's stored value at (p, j): the maximum with zero of the sum over k of x(p, k) · w(k, j), plus b(0, j). -/
theorem pay0_apply (x : Vec Ideal S5000x6 .f32) (w : Vec Ideal S6x16 .f32) (b : Vec Ideal S1x16 .f32) (p : Fin 5000) (j : Fin 16) :
    k0_pay1 (F := Ideal) x w b (ix2 p j)
      = max ((∑ k : Fin 6, x (ix2 p k) * w (ix2 k j)) + b (ix2 (0 : Fin 1) j)) (Ideal.ofBits .f32 0x00000000#32) := by
  unfold k0_pay1
  rw [maximumf_apply, addf_apply, shapeCast_self, shapeCast_self]
  rw [broadcastTo_1b_ab_apply (a := 5000) (b := 16) b broadcasts_S1x16_S5000x16 p j]
  exact congrArg (fun s => max (s + b (ix2 (0 : Fin 1) j)) (Ideal.ofBits .f32 0x00000000#32))
    (PlainDot.matmul_zero_apply dot_S5000x6_S6x16_S5000x16_1_0_0_1_n_n plain6 none
      (truncf .bf16 x bitsLt_bf16_f32) (truncf .bf16 w bitsLt_bf16_f32) p j)

/-- The second body's stored value at (p, 0): the sum over k of hidden(p, k) · wₗ(k, 0), plus bₗ(0, 0). -/
theorem pay1_apply (x : Vec Ideal S5000x16 .f32) (w2 : Vec Ideal S16x16 .f32) (b2 : Vec Ideal S1x16 .f32)
    (wl : Vec Ideal S16x1 .f32) (bl : Vec Ideal S1x1 .f32) (p : Fin 5000) (j : Fin 1) :
    k1_pay1 (F := Ideal) x w2 b2 wl bl (ix2 p j)
      = (∑ k : Fin 16, max ((∑ k' : Fin 16, x (ix2 p k') * w2 (ix2 k' k)) + b2 (ix2 (0 : Fin 1) k)) (Ideal.ofBits .f32 0x00000000#32) * wl (ix2 k j))
        + bl (ix2 (0 : Fin 1) j) := by
  unfold k1_pay1
  rw [addf_apply, shapeCast_self, shapeCast_self, shapeCast_self]
  rw [broadcastTo_1b_ab_apply (a := 5000) (b := 1) bl broadcasts_S1x1_S5000x1 p j]
  refine congrArg (· + bl (ix2 (0 : Fin 1) j)) ?_
  refine (PlainDot.matmul_zero_apply dot_S5000x16_S16x1_S5000x1_1_0_0_1_n_n plain1 none _ _ p j).trans ?_
  refine Finset.sum_congr rfl fun k _ => ?_
  refine congrArg (· * wl (ix2 k j)) ?_
  rw [truncf_apply, maximumf_apply, addf_apply]
  rw [broadcastTo_1b_ab_apply (a := 5000) (b := 16) b2 broadcasts_S1x16_S5000x16 p k]
  exact congrArg (fun s => max (s + b2 (ix2 (0 : Fin 1) k)) (Ideal.ofBits .f32 0x00000000#32))
    (PlainDot.matmul_zero_apply dot_S5000x16_S16x16_S5000x16_1_0_0_1_n_n plain16 none
      (truncf .bf16 x bitsLt_bf16_f32) (truncf .bf16 w2 bitsLt_bf16_f32) p k)

end Cert.KernelIdeal.Payload

end
-- ==== Proof.KernelLayer1.lean ====
/-
  The first dense layer's pipeline as one array. Its grid has 20 points; point t stages rows 5000·t … 5000·t + 4999 of the
  [100000, 6] aggregate, the whole [6, 16] weights and the whole [1, 16] bias row, and writes back rows 5000·t … 5000·t + 4999
  of the [100000, 16] output. What a point writes back is the body's stored value of the staged blocks, which at every
  (row, column) is relu of the row's product with the weights' column plus the bias entry; the 20 row blocks tile the
  output, so the output array after the region is that function of the three arrays as the region finds them — whatever
  those arrays are (`V` is a parameter here).
-/
import proofs.«178030_j21002390078175_1_alg».proof.Proof.Gen.KernelIdeal.Frame
import proofs.«178030_j21002390078175_1_alg».proof.Proof.KernelPayload
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

/-- relu(X·W + B) at every (row, column) of the [100000, 16] output. -/
def denseRelu (X : S100000x6.Idx → EReal) (W : S6x16.Idx → EReal) (B : S1x16.Idx → EReal) : S100000x16.Idx → EReal :=
  fun i => max ((∑ k : Fin 6, X (ix2 (⟨(i 0).val, (i 0).isLt⟩ : Fin 100000) k) * W (ix2 k (⟨(i 1).val, (i 1).isLt⟩ : Fin 16)))
    + B (ix2 (0 : Fin 1) (⟨(i 1).val, (i 1).isLt⟩ : Fin 16))) (Ideal.ofBits .f32 0x00000000#32)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 points: the aggregate's and the output's blocks move down the rows with the
    point, the weights' and the bias row's blocks stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The aggregate's block at point t, at (p, k), is the array at (5000·t + p, k). -/
theorem blk_x (c : Dev nD) (t : Fin cfg0.N) (p : Fin 5000) (k : Fin 6) (i : S100000x6.Idx)
    (h0 : (i 0).val = t.val * 5000 + p.val) (h1 : (i 1).val = k.val) :
    (iblk0 V c 0 t : Vec Ideal S5000x6 .f32) (ix2 p k) = (V c main_v30 : S100000x6.Idx → EReal) i := by
  obtain ⟨e0, e1, -⟩ := idx_facts t
  unfold iblk0
  rw [View.read_apply]
  show V c main_v30 _ = V c main_v30 _
  refine congrArg (V c main_v30) ?_
  funext a
  apply Fin.ext
  match a with
  | ⟨0, _⟩ => show win0_0.index t 0 * 5000 + 1 * p.val = (i 0).val; rw [e0, h0]; omega
  | ⟨1, _⟩ => show win0_0.index t 1 * 6 + 1 * k.val = (i 1).val; rw [e1, h1]; omega

/-- The weights' block at any point is the whole array. -/
theorem blk_w (c : Dev nD) (t : Fin cfg0.N) (k : Fin 6) (j : Fin 16) :
    (iblk0 V c 1 t : Vec Ideal S6x16 .f32) (ix2 k j) = (V c main_arg1 : S6x16.Idx → EReal) (ix2 k j) := by
  obtain ⟨-, -, e2, e3, -⟩ := idx_facts t
  unfold iblk0
  rw [View.read_apply]
  show V c main_arg1 _ = V c main_arg1 _
  refine congrArg (V c main_arg1) ?_
  funext a
  apply Fin.ext
  match a with
  | ⟨0, _⟩ => show win0_1.index t 0 * 6 + 1 * k.val = k.val; rw [e2]; omega
  | ⟨1, _⟩ => show win0_1.index t 1 * 16 + 1 * j.val = j.val; rw [e3]; omega

/-- The bias row's block at any point is the whole row. -/
theorem blk_b (c : Dev nD) (t : Fin cfg0.N) (j : Fin 16) :
    (iblk0 V c 2 t : Vec Ideal S1x16 .f32) (ix2 (0 : Fin 1) j) = (V c main_v31 : S1x16.Idx → EReal) (ix2 (0 : Fin 1) j) := by
  obtain ⟨-, -, -, -, e4, e5, -⟩ := idx_facts t
  unfold iblk0
  rw [View.read_apply]
  show V c main_v31 _ = V c main_v31 _
  refine congrArg (V c main_v31) ?_
  funext a
  apply Fin.ext
  match a with
  | ⟨0, _⟩ => show win0_2.index t 0 * 1 + 1 * 0 = 0; rw [e4]
  | ⟨1, _⟩ => show win0_2.index t 1 * 16 + 1 * j.val = j.val; rw [e5]; omega

/-- What point t writes back is block t of `denseRelu` of the three arrays as the region finds them. -/
theorem flushed_eq (c : Dev nD) (t : Fin cfg0.N) :
    (dat0 (F := Ideal) V c).flushed 3 t
      = ((cfg0.win 3).blk t).view.read (Elt Ideal) (denseRelu (V c main_v30) (V c main_arg1) (V c main_v31)) := by
  show (cfg0.win 3).cut (grid0.coords t) ((dat0 V c).after 3 t) = _
  rw [after0_3]
  unfold out0_3
  rw [View.canon_unit_zero hz]
  simp only [View.ld_unit_zero (S := S5000x6) hz, View.ld_unit_zero (S := S6x16) hz, View.ld_unit_zero (S := S1x16) hz]
  funext y
  obtain ⟨p, j, rfl⟩ : ∃ (p : Fin 5000) (j : Fin 16), y = ix2 p j := ⟨y 0, y 1, eq_ix2 y⟩
  obtain ⟨-, -, -, -, -, -, e6, e7⟩ := idx_facts t
  show k0_pay1 (F := Ideal) (iblk0 V c 0 t) (iblk0 V c 1 t) (iblk0 V c 2 t) (ix2 p j)
    = denseRelu (V c main_v30) (V c main_arg1) (V c main_v31) (((cfg0.win 3).blk t).view.emb (ix2 p j))
  refine (Payload.pay0_apply (iblk0 V c 0 t) (iblk0 V c 1 t) (iblk0 V c 2 t) p j).trans ?_
  have r0 : ((((cfg0.win 3).blk t).view.emb (ix2 p j)) 0).val = t.val * 5000 + p.val := by
    show win0_3.index t 0 * 5000 + 1 * p.val = _; rw [e6]; omega
  have r1 : ((((cfg0.win 3).blk t).view.emb (ix2 p j)) 1).val = j.val := by
    show win0_3.index t 1 * 16 + 1 * j.val = _; rw [e7]; omega
  unfold denseRelu
  have hj : (⟨((((cfg0.win 3).blk t).view.emb (ix2 p j)) 1).val, ((((cfg0.win 3).blk t).view.emb (ix2 p j)) 1).isLt⟩ : Fin 16) = j := Fin.ext r1
  dsimp only
  rw [hj, blk_b V c t j]
  refine congrArg (fun s => max (s + (V c main_v31 : S1x16.Idx → EReal) (ix2 (0 : Fin 1) j)) (Ideal.ofBits .f32 0x00000000#32)) ?_
  refine Finset.sum_congr rfl fun k _ => ?_
  rw [blk_w V c t k j, blk_x V c t p k (ix2 ⟨((((cfg0.win 3).blk t).view.emb (ix2 p j)) 0).val, ((((cfg0.win 3).blk t).view.emb (ix2 p j)) 0).isLt⟩ k) r0 rfl]

/-- An index of the output is in point t's block iff each coordinate is in the block's range on its axis. -/
theorem mem_blk (t : Fin cfg0.N) (i : S100000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v32).slice (win0_3.rect t)).set ↔ _
  rw [View.set_slice_whole, Rect.mem_set_unit]
  exact Iff.rfl

/-- Row r of the output is in the block of point r / 5000. -/
theorem cover (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 20 := N_0
  have ht : (i 0).val / 5000 < cfg0.N := by rw [hN]; omega
  obtain ⟨-, -, -, -, -, -, e6, e7⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ 1 * 16 ≤ (i 1).val ∧ (i 1).val < win0_3.index ⟨(i 0).val / 5000, ht⟩ 1 * 16 + 16
    rw [e7]; omega

/-- THE OUTPUT ARRAY after the region: relu(X·W + B) of the aggregate, the weights and the bias row as the region finds them. -/
theorem value (c : Dev nD) :
    (dat0 (F := Ideal) V c).arrAt 3 cfg0.N = denseRelu (V c main_v30) (V c main_arg1) (V c main_v31) :=
  (dat0 (F := Ideal) V c).arrAt_eq_of_cover 3 _ (fun t _ => flushed_eq V c t) cover

end Cert.KernelIdeal.Layer1

end
-- ==== Proof.KernelLayer2.lean ====
/-
  The second dense layer's pipeline with the linear head, as one array. Its grid has 20 points; point t stages rows
  5000·t … 5000·t + 4999 of the [100000, 16] aggregate and, whole, the [16, 16] weights, the [1, 16] bias row, the [16, 1]
  head weights and the [1, 1] head bias, and writes back rows 5000·t … 5000·t + 4999 of the [100000, 1] output. What a
  point writes back is, at every row, the sum over the 16 hidden units of relu(row·w₂ column + b₂ entry) times the head
  weight, plus the head bias; the 20 row blocks tile the output, so the output array after the region is that function
  of the five arrays as the region finds them (`V` is a parameter here).
-/
import proofs.«178030_j21002390078175_1_alg».proof.Proof.Gen.KernelIdeal.Frame
import proofs.«178030_j21002390078175_1_alg».proof.Proof.KernelPayload
import Idealize.ShloMosaic.Lib.Pipeline.Value

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)

/-- relu(X·W₂ + B₂)·Wₗ + Bₗ at every row of the [100000, 1] output. -/
def denseHead (X : S100000x16.Idx → EReal) (W2 : S16x16.Idx → EReal) (B2 : S1x16.Idx → EReal) (Wl : S16x1.Idx → EReal)
    (Bl : S1x1.Idx → EReal) : S100000x1.Idx → EReal :=
  fun i => (∑ k : Fin 16, max ((∑ k' : Fin 16, X (ix2 (⟨(i 0).val, (i 0).isLt⟩ : Fin 100000) k') * W2 (ix2 k' k))
      + B2 (ix2 (0 : Fin 1) k)) (Ideal.ofBits .f32 0x00000000#32) * Wl (ix2 k (⟨(i 1).val, (i 1).isLt⟩ : Fin 1)))
    + Bl (ix2 (0 : Fin 1) (⟨(i 1).val, (i 1).isLt⟩ : Fin 1))

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 points: the aggregate's and the output's blocks move down the rows with the
    point, the four small operands' blocks stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregate's block at point t, at (p, k), is the array at (5000·t + p, k). -/
theorem blk_x (c : Dev nD) (t : Fin cfg1.N) (p : Fin 5000) (k : Fin 16) (i : S100000x16.Idx)
    (h0 : (i 0).val = t.val * 5000 + p.val) (h1 : (i 1).val = k.val) :
    (iblk1 V c 0 t : Vec Ideal S5000x16 .f32) (ix2 p k) = (V c main_v48 : S100000x16.Idx → EReal) i := by
  obtain ⟨e0, e1, -⟩ := idx_facts t
  unfold iblk1
  rw [View.read_apply]
  show V c main_v48 _ = V c main_v48 _
  refine congrArg (V c main_v48) ?_
  funext a
  apply Fin.ext
  match a with
  | ⟨0, _⟩ => show win1_0.index t 0 * 5000 + 1 * p.val = (i 0).val; rw [e0, h0]; omega
  | ⟨1, _⟩ => show win1_0.index t 1 * 16 + 1 * k.val = (i 1).val; rw [e1, h1]; omega

/-- The hidden weights' block at any point is the whole array. -/
theorem blk_w2 (c : Dev nD) (t : Fin cfg1.N) (k : Fin 16) (j : Fin 16) :
    (iblk1 V c 1 t : Vec Ideal S16x16 .f32) (ix2 k j) = (V c main_arg3 : S16x16.Idx → EReal) (ix2 k j) := by
  obtain ⟨-, -, e2, e3, -⟩ := idx_facts t
  unfold iblk1
  rw [View.read_apply]
  show V c main_arg3 _ = V c main_arg3 _
  refine congrArg (V c main_arg3) ?_
  funext a
  apply Fin.ext
  match a with
  | ⟨0, _⟩ => show win1_1.index t 0 * 16 + 1 * k.val = k.val; rw [e2]; omega
  | ⟨1, _⟩ => show win1_1.index t 1 * 16 + 1 * j.val = j.val; rw [e3]; omega

/-- The hidden bias row's block at any point is the whole row. -/
theorem blk_b2 (c : Dev nD) (t : Fin cfg1.N) (j : Fin 16) :
    (iblk1 V c 2 t : Vec Ideal S1x16 .f32) (ix2 (0 : Fin 1) j) = (V c main_v49 : S1x16.Idx → EReal) (ix2 (0 : Fin 1) j) := by
  obtain ⟨-, -, -, -, e4, e5, -⟩ := idx_facts t
  unfold iblk1
  rw [View.read_apply]
  show V c main_v49 _ = V c main_v49 _
  refine congrArg (V c main_v49) ?_
  funext a
  apply Fin.ext
  match a with
  | ⟨0, _⟩ => show win1_2.index t 0 * 1 + 1 * 0 = 0; rw [e4]
  | ⟨1, _⟩ => show win1_2.index t 1 * 16 + 1 * j.val = j.val; rw [e5]; omega

/-- The head weights' block at any point is the whole array. -/
theorem blk_wl (c : Dev nD) (t : Fin cfg1.N) (k : Fin 16) (j : Fin 1) :
    (iblk1 V c 3 t : Vec Ideal S16x1 .f32) (ix2 k j) = (V c main_arg5 : S16x1.Idx → EReal) (ix2 k j) := by
  obtain ⟨-, -, -, -, -, -, e6, e7, -⟩ := idx_facts t
  unfold iblk1
  rw [View.read_apply]
  show V c main_arg5 _ = V c main_arg5 _
  refine congrArg (V c main_arg5) ?_
  funext a
  apply Fin.ext
  match a with
  | ⟨0, _⟩ => show win1_3.index t 0 * 16 + 1 * k.val = k.val; rw [e6]; omega
  | ⟨1, _⟩ => show win1_3.index t 1 * 1 + 1 * j.val = j.val; rw [e7]; omega

/-- The head bias' block at any point is the whole [1, 1] array. -/
theorem blk_bl (c : Dev nD) (t : Fin cfg1.N) (j : Fin 1) :
    (iblk1 V c 4 t : Vec Ideal S1x1 .f32) (ix2 (0 : Fin 1) j) = (V c main_v50 : S1x1.Idx → EReal) (ix2 (0 : Fin 1) j) := by
  obtain ⟨-, -, -, -, -, -, -, -, e8, e9, -⟩ := idx_facts t
  unfold iblk1
  rw [View.read_apply]
  show V c main_v50 _ = V c main_v50 _
  refine congrArg (V c main_v50) ?_
  funext a
  apply Fin.ext
  match a with
  | ⟨0, _⟩ => show win1_4.index t 0 * 1 + 1 * 0 = 0; rw [e8]
  | ⟨1, _⟩ => show win1_4.index t 1 * 1 + 1 * j.val = j.val; rw [e9]; omega

/-- What point t writes back is block t of `denseHead` of the five arrays as the region finds them. -/
theorem flushed_eq (c : Dev nD) (t : Fin cfg1.N) :
    (dat1 (F := Ideal) V c).flushed 5 t
      = ((cfg1.win 5).blk t).view.read (Elt Ideal) (denseHead (V c main_v48) (V c main_arg3) (V c main_v49) (V c main_arg5) (V c main_v50)) := by
  show (cfg1.win 5).cut (grid1.coords t) ((dat1 V c).after 5 t) = _
  rw [after1_5]
  unfold out1_5
  rw [View.canon_unit_zero hz]
  simp only [View.ld_unit_zero (S := S5000x16) hz, View.ld_unit_zero (S := S16x16) hz, View.ld_unit_zero (S := S1x16) hz,
    View.ld_unit_zero (S := S16x1) hz, View.ld_unit_zero (S := S1x1) hz]
  funext y
  obtain ⟨p, j, rfl⟩ : ∃ (p : Fin 5000) (j : Fin 1), y = ix2 p j := ⟨y 0, y 1, eq_ix2 y⟩
  obtain ⟨-, -, -, -, -, -, -, -, -, -, e10, e11⟩ := idx_facts t
  show k1_pay1 (F := Ideal) (iblk1 V c 0 t) (iblk1 V c 1 t) (iblk1 V c 2 t) (iblk1 V c 3 t) (iblk1 V c 4 t) (ix2 p j)
    = denseHead (V c main_v48) (V c main_arg3) (V c main_v49) (V c main_arg5) (V c main_v50) (((cfg1.win 5).blk t).view.emb (ix2 p j))
  refine (Payload.pay1_apply (iblk1 V c 0 t) (iblk1 V c 1 t) (iblk1 V c 2 t) (iblk1 V c 3 t) (iblk1 V c 4 t) p j).trans ?_
  have r0 : ((((cfg1.win 5).blk t).view.emb (ix2 p j)) 0).val = t.val * 5000 + p.val := by
    show win1_5.index t 0 * 5000 + 1 * p.val = _; rw [e10]; omega
  have r1 : ((((cfg1.win 5).blk t).view.emb (ix2 p j)) 1).val = j.val := by
    show win1_5.index t 1 * 1 + 1 * j.val = _; rw [e11]; omega
  unfold denseHead
  have hj : (⟨((((cfg1.win 5).blk t).view.emb (ix2 p j)) 1).val, ((((cfg1.win 5).blk t).view.emb (ix2 p j)) 1).isLt⟩ : Fin 1) = j := Fin.ext r1
  dsimp only
  rw [hj, blk_bl V c t j]
  refine congrArg (fun s => s + (V c main_v50 : S1x1.Idx → EReal) (ix2 (0 : Fin 1) j)) ?_
  refine Finset.sum_congr rfl fun k _ => ?_
  rw [blk_wl V c t k j, blk_b2 V c t k]
  refine congrArg (fun s => max (s + (V c main_v49 : S1x16.Idx → EReal) (ix2 (0 : Fin 1) k)) (Ideal.ofBits .f32 0x00000000#32) * (V c main_arg5 : S16x1.Idx → EReal) (ix2 k j)) ?_
  refine Finset.sum_congr rfl fun k' _ => ?_
  rw [blk_w2 V c t k' k, blk_x V c t p k' (ix2 ⟨((((cfg1.win 5).blk t).view.emb (ix2 p j)) 0).val, ((((cfg1.win 5).blk t).view.emb (ix2 p j)) 0).isLt⟩ k') r0 rfl]

/-- An index of the output is in point t's block iff each coordinate is in the block's range on its axis. -/
theorem mem_blk (t : Fin cfg1.N) (i : S100000x1.Idx) :
    i ∈ ((cfg1.win 5).blk t).view.set ↔ ∀ a : Fin 2, win1_5.index t a * S5000x1.size a ≤ (i a).val ∧ (i a).val < win1_5.index t a * S5000x1.size a + S5000x1.size a := by
  show i ∈ ((View.whole main_v51).slice (win1_5.rect t)).set ↔ _
  rw [View.set_slice_whole, Rect.mem_set_unit]
  exact Iff.rfl

/-- Row r of the output is in the block of point r / 5000. -/
theorem cover (i : S100000x1.Idx) : ∃ t : Fin cfg1.N, (cfg1.win 5).flush t = true ∧ i ∈ ((cfg1.win 5).blk t).view.set := by
  have hi0 : (i 0).val < 100000 := (i 0).isLt
  have hi1 : (i 1).val < 1 := (i 1).isLt
  have hN : cfg1.N = 20 := N_1
  have ht : (i 0).val / 5000 < cfg1.N := by rw [hN]; omega
  obtain ⟨-, -, -, -, -, -, -, -, -, -, e10, e11⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ 0 * 5000 ≤ (i 0).val ∧ (i 0).val < win1_5.index ⟨(i 0).val / 5000, ht⟩ 0 * 5000 + 5000
    rw [e10]; show (i 0).val / 5000 * 5000 ≤ (i 0).val ∧ (i 0).val < (i 0).val / 5000 * 5000 + 5000; omega
  | ⟨1, _⟩ =>
    show win1_5.index ⟨(i 0).val / 5000, ht⟩ 1 * 1 ≤ (i 1).val ∧ (i 1).val < win1_5.index ⟨(i 0).val / 5000, ht⟩ 1 * 1 + 1
    rw [e11]; omega

/-- THE OUTPUT ARRAY after the region: relu(X·W₂ + B₂)·Wₗ + Bₗ of the five arrays as the region finds them. -/
theorem value (c : Dev nD) :
    (dat1 (F := Ideal) V c).arrAt 5 cfg1.N = denseHead (V c main_v48) (V c main_arg3) (V c main_v49) (V c main_arg5) (V c main_v50) :=
  (dat1 (F := Ideal) V c).arrAt_eq_of_cover 5 _ (fun t _ => flushed_eq V c t) cover

end Cert.KernelIdeal.Layer2

end
-- ==== Proof.KernelHost.lean ====
/-
  The host side of the idealized kernel program, stretch by stretch. Before the first pipeline the host operations
  compute, from the edge lists alone, the two degree normalisers (a scatter-add of ones, then 1/sqrt where the degree is
  positive and zero elsewhere), and from them and the node features the first aggregate; between the two pipelines they
  compute the second aggregate from the first pipeline's output and the same normalisers. They are, operation for
  operation, the reference's own operations on the same operands, so each value a pipeline finds is the reference's
  stage of the same name — once the values that stretch starts from are the reference's. Each stretch is therefore read
  from ANY contents `W`, under hypotheses naming what it reads; the run's contents are instantiated last. The arguments
  pass through every stretch unwritten, and a bias enters a pipeline reshaped from [n] to [1, n].
-/
import proofs.«178030_j21002390078175_1_alg».proof.Proof.Gen.KernelIdeal.Frame
import proofs.«178030_j21002390078175_1_alg».proof.Proof.RefReadP

set_option maxRecDepth 16384
set_option maxHeartbeats 4000000

noncomputable section

namespace Cert.KernelIdeal.HostSide

open Cert.KernelIdeal Cert.KernelIdeal.Gen Idealize.ShloMosaic Idealize.ShloMosaic.TcCoe Idealize.SL.Sem
open Idealize.ShloMosaic.StableHlo
open Cert.ReferenceIdeal.ReadP

/-! ## Each stretch, from any contents `W` -/

section Stretches

variable (W : Valuation τ sig (Elt Ideal))
variable (x0 : (⟨Cert.ReferenceIdeal.S100000x6, .f32⟩ : BufTy).Contents (Elt Ideal)) (x1 : (⟨Cert.ReferenceIdeal.S6x16, .f32⟩ : BufTy).Contents (Elt Ideal))
  (x2 : (⟨Cert.ReferenceIdeal.S16, .f32⟩ : BufTy).Contents (Elt Ideal)) (x7 x8 : (⟨Cert.ReferenceIdeal.S3200000, .i32⟩ : BufTy).Contents (Elt Ideal))

/-- The first stretch: whether the out-degree is positive. -/
theorem degOut_pos (h7 : W (Proc.devRef .tc main_arg7) = x7) :
    after hostOps0 W (Proc.devRef .tc main_v8) = val_main_v8 (F := Ideal) x7 := by
  after_results_simp
  rw [h7]
  rfl

/-- The first stretch: 1/sqrt of the out-degree. -/
theorem degOut_rsqrt (h7 : W (Proc.devRef .tc main_arg7) = x7) :
    after hostOps0 W (Proc.devRef .tc main_v9) = val_main_v9 (F := Ideal) x7 := by
  after_results_simp
  rw [h7]
  rfl

/-- The first stretch: the zero the out-degree normaliser takes where the degree is zero. -/
theorem degOut_zero : after hostOps0 W (Proc.devRef .tc main_cst_3) = val_main_cst_3 (F := Ideal) := by
  after_results_simp
  rfl

/-- The first stretch: the in-degree. -/
theorem degIn (h8 : W (Proc.devRef .tc main_arg8) = x8) :
    after hostOps0 W (Proc.devRef .tc main_v6) = val_main_v6 (F := Ideal) x8 := by
  after_results_simp
  rw [h8]
  rfl

/-- The second stretch: the out-degree normaliser. -/
theorem normOut_of (h8 : W (Proc.devRef .tc main_v8) = val_main_v8 (F := Ideal) x7)
    (h9 : W (Proc.devRef .tc main_v9) = val_main_v9 (F := Ideal) x7)
    (hz : W (Proc.devRef .tc main_cst_3) = val_main_cst_3 (F := Ideal)) :
    after hostOps0_1 W (Proc.devRef .tc main_v10) = val_main_v10 (F := Ideal) x7 := by
  after_results_simp
  simp only [TRef.toBuf, TRef.ofBuf, cast_eq]
  rw [h8, h9, hz]
  rfl

/-- The second stretch leaves the in-degree in place. -/
theorem keep1_v6 : after hostOps0_1 W (Proc.devRef .tc main_v6) = W (Proc.devRef .tc main_v6) := by
  after_results_simp

/-- The third stretch: whether the in-degree is positive, its 1/sqrt, and the zero. -/
theorem degIn_pos (h6 : W (Proc.devRef .tc main_v6) = val_main_v6 (F := Ideal) x8) :
    after hostOps0_2 W (Proc.devRef .tc main_v12) = val_main_v12 (F := Ideal) x8 := by
  after_results_simp
  rw [h6]
  rfl
theorem degIn_rsqrt (h6 : W (Proc.devRef .tc main_v6) = val_main_v6 (F := Ideal) x8) :
    after hostOps0_2 W (Proc.devRef .tc main_v13) = val_main_v13 (F := Ideal) x8 := by
  after_results_simp
  rw [h6]
  rfl
theorem degIn_zero : after hostOps0_2 W (Proc.devRef .tc main_cst_5) = val_main_cst_5 (F := Ideal) := by
  after_results_simp
  rfl
theorem keep2_v10 : after hostOps0_2 W (Proc.devRef .tc main_v10) = W (Proc.devRef .tc main_v10) := by
  after_results_simp

/-- The fourth stretch: the in-degree normaliser. -/
theorem normIn_of (h12 : W (Proc.devRef .tc main_v12) = val_main_v12 (F := Ideal) x8)
    (h13 : W (Proc.devRef .tc main_v13) = val_main_v13 (F := Ideal) x8)
    (hz : W (Proc.devRef .tc main_cst_5) = val_main_cst_5 (F := Ideal)) :
    after hostOps0_3 W (Proc.devRef .tc main_v14) = val_main_v14 (F := Ideal) x8 := by
  after_results_simp
  simp only [TRef.toBuf, TRef.ofBuf, cast_eq]
  rw [h12, h13, hz]
  rfl
theorem keep3_v10 : after hostOps0_3 W (Proc.devRef .tc main_v10) = W (Proc.devRef .tc main_v10) := by
  after_results_simp

/-- The fifth stretch: the first aggregate, from the two normalisers, the node features and the edge lists. -/
theorem agg1_of (h10 : W (Proc.devRef .tc main_v10) = val_main_v10 (F := Ideal) x7)
    (h14 : W (Proc.devRef .tc main_v14) = val_main_v14 (F := Ideal) x8)
    (h0 : W (Proc.devRef .tc main_arg0) = x0)
    (h7 : W (Proc.devRef .tc main_arg7) = x7) (h8 : W (Proc.devRef .tc main_arg8) = x8) :
    after hostOps0_4 W (Proc.devRef .tc main_v30) = val_main_v30 (F := Ideal) x0 x7 x8 := by
  after_results_simp
  rw [h10, h14, h0, h7, h8]
  rfl

/-- The fifth stretch: the first bias row, the [16] argument reshaped to [1, 16]. -/
theorem bias1_of : after hostOps0_4 W (Proc.devRef .tc main_v31)
    = shapeCast S1x16 (W (Proc.devRef .tc main_arg2)) shapeCasts_S16_S1x16 := by
  after_results_simp
  rfl
theorem keep4_v10 : after hostOps0_4 W (Proc.devRef .tc main_v10) = W (Proc.devRef .tc main_v10) := by
  after_results_simp
theorem keep4_v14 : after hostOps0_4 W (Proc.devRef .tc main_v14) = W (Proc.devRef .tc main_v14) := by
  after_results_simp

/-- Between the pipelines: the second aggregate is the reference's, when the stretch starts from the reference's first
    hidden layer, the two normalisers and the edge lists. -/
theorem agg2_eq (h32 : W (Proc.devRef .tc main_v32) = val_main_v35 (F := Ideal) x0 x1 x2 x7 x8)
    (h10 : W (Proc.devRef .tc main_v10) = val_main_v10 (F := Ideal) x7)
    (h14 : W (Proc.devRef .tc main_v14) = val_main_v14 (F := Ideal) x8)
    (h7 : W (Proc.devRef .tc main_arg7) = x7) (h8 : W (Proc.devRef .tc main_arg8) = x8) :
    after hostOps1 W (Proc.devRef .tc main_v48) = val_main_v51 (F := Ideal) x0 x1 x2 x7 x8 := by
  after_results_simp
  rw [h32, h10, h14, h7, h8]
  rfl

/-- The second layer's weights pass through the stretch. -/
theorem between_arg3 : after hostOps1 W (Proc.devRef .tc main_arg3) = W (Proc.devRef .tc main_arg3) := by
  after_results_simp

/-- The head's weights pass through the stretch. -/
theorem between_arg5 : after hostOps1 W (Proc.devRef .tc main_arg5) = W (Proc.devRef .tc main_arg5) := by
  after_results_simp

/-- The second bias row: the [16] argument reshaped to [1, 16]. -/
theorem between_bias2 : after hostOps1 W (Proc.devRef .tc main_v49)
    = shapeCast S1x16 (W (Proc.devRef .tc main_arg4)) shapeCasts_S16_S1x16 := by
  after_results_simp
  rfl

/-- The head's bias: the [1] argument reshaped to [1, 1]. -/
theorem between_bias3 : after hostOps1 W (Proc.devRef .tc main_v50)
    = shapeCast S1x1 (W (Proc.devRef .tc main_arg6)) shapeCasts_S1_S1x1 := by
  after_results_simp
  rfl

/-- After the second pipeline: its [100000, 1] output reshaped to [100000]. -/
theorem tail_result : after hostOps2 W (Proc.devRef .tc main_v52)
    = shapeCast S100000 (W (Proc.devRef .tc main_v51)) shapeCasts_S100000x1_S100000 := by
  after_results_simp
  rfl

end Stretches

/-! ## The run's contents when the first pipeline is entered -/

variable (m : (ℓ : Loc nD τ sig) → Buf (Elt Ideal) ℓ) (ρ : Dev nD → PrngReg) (c : Dev nD)

/-- Argument 1 is as launched when the first pipeline is entered. -/
theorem entry1_arg1 : W5 m ρ c (Proc.devRef .tc main_arg1) = m ((c : Thread nD τ).loc main_arg1) := by
  dsimp only [W5, W4, W3, W2, W1, W0]
  after_results_simp
/-- Argument 3 is as launched when the first pipeline is entered. -/
theorem entry1_arg3 : W5 m ρ c (Proc.devRef .tc main_arg3) = m ((c : Thread nD τ).loc main_arg3) := by
  dsimp only [W5, W4, W3, W2, W1, W0]
  after_results_simp
/-- Argument 4 is as launched when the first pipeline is entered. -/
theorem entry1_arg4 : W5 m ρ c (Proc.devRef .tc main_arg4) = m ((c : Thread nD τ).loc main_arg4) := by
  dsimp only [W5, W4, W3, W2, W1, W0]
  after_results_simp
/-- Argument 5 is as launched when the first pipeline is entered. -/
theorem entry1_arg5 : W5 m ρ c (Proc.devRef .tc main_arg5) = m ((c : Thread nD τ).loc main_arg5) := by
  dsimp only [W5, W4, W3, W2, W1, W0]
  after_results_simp
/-- Argument 6 is as launched when the first pipeline is entered. -/
theorem entry1_arg6 : W5 m ρ c (Proc.devRef .tc main_arg6) = m ((c : Thread nD τ).loc main_arg6) := by
  dsimp only [W5, W4, W3, W2, W1, W0]
  after_results_simp
/-- Argument 7 is as launched when the first pipeline is entered. -/
theorem entry1_arg7 : W5 m ρ c (Proc.devRef .tc main_arg7) = m ((c : Thread nD τ).loc main_arg7) := by
  dsimp only [W5, W4, W3, W2, W1, W0]
  after_results_simp
/-- Argument 8 is as launched when the first pipeline is entered. -/
theorem entry1_arg8 : W5 m ρ c (Proc.devRef .tc main_arg8) = m ((c : Thread nD τ).loc main_arg8) := by
  dsimp only [W5, W4, W3, W2, W1, W0]
  after_results_simp

/-- Argument 0 is as launched when the fifth stretch starts. -/
theorem stretch5_arg0 : W4 m ρ c (Proc.devRef .tc main_arg0) = m ((c : Thread nD τ).loc main_arg0) := by
  dsimp only [W4, W3, W2, W1, W0]
  after_results_simp
/-- Argument 2 is as launched when the fifth stretch starts. -/
theorem stretch5_arg2 : W4 m ρ c (Proc.devRef .tc main_arg2) = m ((c : Thread nD τ).loc main_arg2) := by
  dsimp only [W4, W3, W2, W1, W0]
  after_results_simp
/-- Argument 7 is as launched when the fifth stretch starts. -/
theorem stretch5_arg7 : W4 m ρ c (Proc.devRef .tc main_arg7) = m ((c : Thread nD τ).loc main_arg7) := by
  dsimp only [W4, W3, W2, W1, W0]
  after_results_simp
/-- Argument 8 is as launched when the fifth stretch starts. -/
theorem stretch5_arg8 : W4 m ρ c (Proc.devRef .tc main_arg8) = m ((c : Thread nD τ).loc main_arg8) := by
  dsimp only [W4, W3, W2, W1, W0]
  after_results_simp

/-- The out-degree normaliser after the second stretch is the reference's. -/
theorem normOut2 : W2 m ρ c (Proc.devRef .tc main_v10) = val_main_v10 (F := Ideal) (m ((c : Thread nD τ).loc main_arg7)) :=
  normOut_of (W1 m ρ c) _ (degOut_pos (W0 m ρ c) _ rfl) (degOut_rsqrt (W0 m ρ c) _ rfl) (degOut_zero (W0 m ρ c))

/-- It is still there when the fifth stretch starts. -/
theorem normOut4 : W4 m ρ c (Proc.devRef .tc main_v10) = val_main_v10 (F := Ideal) (m ((c : Thread nD τ).loc main_arg7)) :=
  (keep3_v10 (W3 m ρ c)).trans ((keep2_v10 (W2 m ρ c)).trans (normOut2 m ρ c))

/-- The in-degree after the second stretch is the reference's. -/
theorem degIn2 : W2 m ρ c (Proc.devRef .tc main_v6) = val_main_v6 (F := Ideal) (m ((c : Thread nD τ).loc main_arg8)) :=
  (keep1_v6 (W1 m ρ c)).trans (degIn (W0 m ρ c) _ rfl)

/-- The in-degree normaliser after the fourth stretch is the reference's. -/
theorem normIn4 : W4 m ρ c (Proc.devRef .tc main_v14) = val_main_v14 (F := Ideal) (m ((c : Thread nD τ).loc main_arg8)) :=
  normIn_of (W3 m ρ c) _ (degIn_pos (W2 m ρ c) _ (degIn2 m ρ c)) (degIn_rsqrt (W2 m ρ c) _ (degIn2 m ρ c)) (degIn_zero (W2 m ρ c))

/-- The out-degree normaliser, as the first pipeline finds it, is the reference's. -/
theorem entry1_normOut : W5 m ρ c (Proc.devRef .tc main_v10) = val_main_v10 (F := Ideal) (m ((c : Thread nD τ).loc main_arg7)) :=
  (keep4_v10 (W4 m ρ c)).trans (normOut4 m ρ c)

/-- The in-degree normaliser, as the first pipeline finds it, is the reference's. -/
theorem entry1_normIn : W5 m ρ c (Proc.devRef .tc main_v14) = val_main_v14 (F := Ideal) (m ((c : Thread nD τ).loc main_arg8)) :=
  (keep4_v14 (W4 m ρ c)).trans (normIn4 m ρ c)

/-- The first aggregate, as the first pipeline finds it, is the reference's. -/
theorem entry1_agg : W5 m ρ c (Proc.devRef .tc main_v30)
    = val_main_v30 (F := Ideal) (m ((c : Thread nD τ).loc main_arg0)) (m ((c : Thread nD τ).loc main_arg7)) (m ((c : Thread nD τ).loc main_arg8)) :=
  agg1_of (W4 m ρ c) _ _ _ (normOut4 m ρ c) (normIn4 m ρ c) (stretch5_arg0 m ρ c) (stretch5_arg7 m ρ c) (stretch5_arg8 m ρ c)

/-- The first bias row, as the first pipeline finds it: the [16] argument reshaped to [1, 16]. -/
theorem entry1_bias : W5 m ρ c (Proc.devRef .tc main_v31)
    = shapeCast S1x16 (m ((c : Thread nD τ).loc main_arg2)) shapeCasts_S16_S1x16 := by
  refine (bias1_of (W4 m ρ c)).trans ?_
  rw [stretch5_arg2 m ρ c]

end Cert.KernelIdeal.HostSide

end
-- ==== Proof.RefDense.lean ====
/-
  The reference's two dense layers and its linear head, each as ONE function of the array it is applied to.
  `denseRelu6 X W B` is relu(X·W + B) over [100000, 6] × [6, 16], `denseRelu16 X W B` the same over
  [100000, 16] × [16, 16], `head H Wl Bl` is H·Wl + Bl over [100000, 16] × [16, 1]; each entry is a finite sum of
  products on the extended reals, plus the bias row's entry, and for the two hidden layers the maximum with zero.
  The reference's stages are these functions: its first hidden layer (`val_main_v35`) is `denseRelu6` of the first
  aggregate (`val_main_v30`), and its result before the final reshape (`val_main_v60`) is `head` of `denseRelu16` of
  the second aggregate (`val_main_v51`). A bias of shape [16] enters the reference by a broadcast to [1, 16] and the
  kernel program by a reshape to [1, 16]: the same row.
-/
import proofs.«178030_j21002390078175_1_alg».proof.Proof.RefReadP

noncomputable section

namespace Cert.ReferenceIdeal.Dense

open Cert.ReferenceIdeal Cert.ReferenceIdeal.Gen Cert.ReferenceIdeal.ReadP Idealize.ShloMosaic

/-- relu(X·W + B) at every (row, column) of [100000, 16], X of [100000, 6]. -/
def denseRelu6 (X : S100000x6.Idx → EReal) (W : S6x16.Idx → EReal) (B : S1x16.Idx → EReal) : S100000x16.Idx → EReal :=
  fun i => max ((∑ k : Fin 6, X (lidx_main_v31 i k) * W (ridx_main_v31 i k)) + B (idx_main_v33 i)) (Ideal.ofBits .f32 0x00000000#32)

/-- relu(X·W + B) at every (row, column) of [100000, 16], X of [100000, 16]. -/
def denseRelu16 (X : S100000x16.Idx → EReal) (W : S16x16.Idx → EReal) (B : S1x16.Idx → EReal) : S100000x16.Idx → EReal :=
  fun i => max ((∑ k : Fin 16, X (lidx_main_v52 i k) * W (ridx_main_v52 i k)) + B (idx_main_v54 i)) (Ideal.ofBits .f32 0x00000000#32)

/-- H·Wl + Bl at every row of [100000, 1]. -/
def head (H : S100000x16.Idx → EReal) (Wl : S16x1.Idx → EReal) (Bl : S1x1.Idx → EReal) : S100000x1.Idx → EReal :=
  fun i => (∑ k : Fin 16, H (lidx_main_v57 i k) * Wl (ridx_main_v57 i k)) + Bl (idx_main_v59 i)

variable (x0 : (⟨S100000x6, .f32⟩ : BufTy).Contents (Elt Ideal)) (x1 : (⟨S6x16, .f32⟩ : BufTy).Contents (Elt Ideal))
  (x2 : (⟨S16, .f32⟩ : BufTy).Contents (Elt Ideal)) (x3 : (⟨S16x16, .f32⟩ : BufTy).Contents (Elt Ideal))
  (x4 : (⟨S16, .f32⟩ : BufTy).Contents (Elt Ideal)) (x5 : (⟨S16x1, .f32⟩ : BufTy).Contents (Elt Ideal))
  (x6 : (⟨S1, .f32⟩ : BufTy).Contents (Elt Ideal)) (x7 x8 : (⟨S3200000, .i32⟩ : BufTy).Contents (Elt Ideal))

/-- The reference's first hidden layer is `denseRelu6` of its first aggregate. -/
theorem hidden1_eq : val_main_v35 (F := Ideal) x0 x1 x2 x7 x8
    = denseRelu6 (val_main_v30 (F := Ideal) x0 x7 x8) x1 (val_main_v32 (F := Ideal) x2) := by
  funext i
  rw [val_main_v35_apply, val_main_v34_apply, val_main_v31_apply, val_main_v33_apply, val_main_call2_v0_apply,
    val_main_call2_cst_apply]
  rfl

/-- The reference's second hidden layer is `denseRelu16` of its second aggregate. -/
theorem hidden2_eq : val_main_v56 (F := Ideal) x0 x1 x2 x3 x4 x7 x8
    = denseRelu16 (val_main_v51 (F := Ideal) x0 x1 x2 x7 x8) x3 (val_main_v53 (F := Ideal) x4) := by
  funext i
  rw [val_main_v56_apply, val_main_v55_apply, val_main_v52_apply, val_main_v54_apply, val_main_call3_v0_apply,
    val_main_call3_cst_apply]
  rfl

/-- The reference's result before the final reshape is the head of the second hidden layer. -/
theorem out_eq : val_main_v60 (F := Ideal) x0 x1 x2 x3 x4 x5 x6 x7 x8
    = head (denseRelu16 (val_main_v51 (F := Ideal) x0 x1 x2 x7 x8) x3 (val_main_v53 (F := Ideal) x4)) x5 (val_main_v58 (F := Ideal) x6) := by
  funext i
  rw [val_main_v60_apply, val_main_v57_apply, val_main_v59_apply, hidden2_eq]
  rfl

/-- A [16] bias reshaped to [1, 16] is the bias broadcast to [1, 16] (the reference's first layer). -/
theorem bias1_reshape (h : S16.ShapeCasts S1x16) : shapeCast S1x16 x2 h = val_main_v32 (F := Ideal) x2 := by
  funext i
  rw [val_main_v32_apply]
  exact shapeCast_apply x2 h i (idx_main_v32 i)
    (by rewrite [Shape.rowMajor_val_one, Shape.rowMajor_val_two]; have h0 : (i 0).val < 1 := (i 0).isLt
        show (i 1).val = (i 0).val * 16 + (i 1).val; omega)

/-- The same for the second layer's bias. -/
theorem bias2_reshape (h : S16.ShapeCasts S1x16) : shapeCast S1x16 x4 h = val_main_v53 (F := Ideal) x4 := by
  funext i
  rw [val_main_v53_apply]
  exact shapeCast_apply x4 h i (idx_main_v53 i)
    (by rewrite [Shape.rowMajor_val_one, Shape.rowMajor_val_two]; have h0 : (i 0).val < 1 := (i 0).isLt
        show (i 1).val = (i 0).val * 16 + (i 1).val; omega)

/-- A [1] bias reshaped to [1, 1] is the bias broadcast to [1, 1] (the head). -/
theorem bias3_reshape (h : S1.ShapeCasts S1x1) : shapeCast S1x1 x6 h = val_main_v58 (F := Ideal) x6 := by
  funext i
  rw [val_main_v58_apply]
  exact shapeCast_apply x6 h i (idx_main_v58 i)
    (by rewrite [Shape.rowMajor_val_one, Shape.rowMajor_val_two]; have h0 : (i 0).val < 1 := (i 0).isLt
        have h1 : (i 1).val < 1 := (i 1).isLt
        show 0 = (i 0).val * 1 + (i 1).val; omega)

end Cert.ReferenceIdeal.Dense

end
-- ==== Proof.KernelValue.lean ====
/-
  The idealized kernel program's result is the reference's, as one function of the argument arrays. Following the
  program's nine segments: the first pipeline finds the reference's first aggregate, the weights and the bias row, so
  it leaves the reference's first hidden layer; the host operations between the pipelines, being the reference's own on
  that layer and the same normalisers, leave the reference's second aggregate; the second pipeline, finding it with the
  second layer's weights and bias row and the head's, leaves the reference's result before its final reshape; and the
  last host operation is that reshape. The two programs compute each dense layer as the same finite sums of products on
  the extended reals, term for term, so no algebraic law beyond reading both sides at an index is used, and the
  finiteness of the inputs is never needed.
-/
import proofs.«178030_j21002390078175_1_alg».proof.Proof.KernelLayer1
import proofs.«178030_j21002390078175_1_alg».proof.Proof.KernelLayer2
import proofs.«178030_j21002390078175_1_alg».proof.Proof.KernelHost
import proofs.«178030_j21002390078175_1_alg».proof.Proof.RefDense

set_option maxRecDepth 16384

noncomputable section

namespace Cert.KernelIdeal.ResultValue

open Cert.KernelIdeal Cert.KernelIdeal.Gen Idealize.ShloMosaic Idealize.ShloMosaic.TcCoe Idealize.SL.Sem
open Idealize.ShloMosaic.ValueIdx
open Cert.ReferenceIdeal.ReadP Cert.ReferenceIdeal.Dense

/-! ## The two spellings of each dense layer are one function -/

/-- The first pipeline's function, written over coordinates, is the reference's first dense layer. -/
theorem layer1_eq (X : S100000x6.Idx → EReal) (W : S6x16.Idx → EReal) (B : S1x16.Idx → EReal) :
    Layer1.denseRelu X W B = denseRelu6 X W B := by
  funext i
  have hl : ∀ k : Fin 6, lidx_main_v31 i k = ix2 (⟨(i 0).val, (i 0).isLt⟩ : Fin 100000) k :=
    fun k => funext fun a => by match a with | ⟨0, _⟩ => rfl | ⟨1, _⟩ => rfl
  have hr : ∀ k : Fin 6, ridx_main_v31 i k = ix2 k (⟨(i 1).val, (i 1).isLt⟩ : Fin 16) :=
    fun k => funext fun a => by match a with | ⟨0, _⟩ => rfl | ⟨1, _⟩ => rfl
  have hb : idx_main_v33 i = ix2 (0 : Fin 1) (⟨(i 1).val, (i 1).isLt⟩ : Fin 16) :=
    funext fun a => by match a with | ⟨0, _⟩ => rfl | ⟨1, _⟩ => rfl
  unfold Layer1.denseRelu denseRelu6
  simp only [hl, hr, hb]

/-- The second pipeline's function, written over coordinates, is the reference's head of its second dense layer. -/
theorem layer2_eq (X : S100000x16.Idx → EReal) (W2 : S16x16.Idx → EReal) (B2 : S1x16.Idx → EReal) (Wl : S16x1.Idx → EReal)
    (Bl : S1x1.Idx → EReal) : Layer2.denseHead X W2 B2 Wl Bl = head (denseRelu16 X W2 B2) Wl Bl := by
  funext i
  have hl : ∀ k k' : Fin 16, lidx_main_v52 (lidx_main_v57 i k) k' = ix2 (⟨(i 0).val, (i 0).isLt⟩ : Fin 100000) k' :=
    fun k k' => funext fun a => by match a with | ⟨0, _⟩ => rfl | ⟨1, _⟩ => rfl
  have hr : ∀ k k' : Fin 16, ridx_main_v52 (lidx_main_v57 i k) k' = ix2 k' k :=
    fun k k' => funext fun a => by match a with | ⟨0, _⟩ => rfl | ⟨1, _⟩ => rfl
  have hb : ∀ k : Fin 16, idx_main_v54 (lidx_main_v57 i k) = ix2 (0 : Fin 1) k :=
    fun k => funext fun a => by match a with | ⟨0, _⟩ => rfl | ⟨1, _⟩ => rfl
  have hwl : ∀ k : Fin 16, ridx_main_v57 i k = ix2 k (⟨(i 1).val, (i 1).isLt⟩ : Fin 1) :=
    fun k => funext fun a => by match a with | ⟨0, _⟩ => rfl | ⟨1, _⟩ => rfl
  have hbl : idx_main_v59 i = ix2 (0 : Fin 1) (⟨(i 1).val, (i 1).isLt⟩ : Fin 1) :=
    funext fun a => Fin.ext (by
      match a with
      | ⟨0, _⟩ => rfl
      | ⟨1, _⟩ => have h1 : (i 1).val < 1 := (i 1).isLt; show 0 = (i 1).val; omega)
  unfold Layer2.denseHead head denseRelu16
  simp only [hl, hr, hb, hwl, hbl]

/-! ## Segment by segment -/

variable (m : (ℓ : Loc nD τ sig) → Buf (Elt Ideal) ℓ) (ρ : Dev nD → PrngReg) (c : Dev nD)

/-- After the first pipeline its output holds the reference's first hidden layer. -/
theorem hidden1 : W6 m ρ c (Proc.devRef .tc main_v32)
    = val_main_v35 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  have e30 : V5 m ρ c main_v30 = val_main_v30 (F := Ideal) (m ((c : Thread nD τ).loc main_arg0)) (m ((c : Thread nD τ).loc main_arg7)) (m ((c : Thread nD τ).loc main_arg8)) := HostSide.entry1_agg m ρ c
  have e1 : V5 m ρ c main_arg1 = (m ((c : Thread nD τ).loc main_arg1)) := HostSide.entry1_arg1 m ρ c
  have e31 : V5 m ρ c main_v31 = val_main_v32 (F := Ideal) (m ((c : Thread nD τ).loc main_arg2)) :=
    (HostSide.entry1_bias m ρ c).trans (bias1_reshape (m ((c : Thread nD τ).loc main_arg2)) _)
  refine (W6_arr m ρ c 3).trans ?_
  refine (Layer1.value (V5 m ρ) c).trans ?_
  rw [e30, e1, e31, layer1_eq]
  exact (hidden1_eq _ _ _ _ _).symm

theorem kept_v10 : W6 m ρ c (Proc.devRef .tc main_v10) = val_main_v10 (F := Ideal) (m ((c : Thread nD τ).loc main_arg7)) :=
  (W6_of_ne m ρ c main_v10 (by decide)).trans (HostSide.entry1_normOut m ρ c)
theorem kept_v14 : W6 m ρ c (Proc.devRef .tc main_v14) = val_main_v14 (F := Ideal) (m ((c : Thread nD τ).loc main_arg8)) :=
  (W6_of_ne m ρ c main_v14 (by decide)).trans (HostSide.entry1_normIn m ρ c)
theorem kept_arg3 : W6 m ρ c (Proc.devRef .tc main_arg3) = (m ((c : Thread nD τ).loc main_arg3)) :=
  (W6_of_ne m ρ c main_arg3 (by decide)).trans (HostSide.entry1_arg3 m ρ c)
theorem kept_arg4 : W6 m ρ c (Proc.devRef .tc main_arg4) = (m ((c : Thread nD τ).loc main_arg4)) :=
  (W6_of_ne m ρ c main_arg4 (by decide)).trans (HostSide.entry1_arg4 m ρ c)
theorem kept_arg5 : W6 m ρ c (Proc.devRef .tc main_arg5) = (m ((c : Thread nD τ).loc main_arg5)) :=
  (W6_of_ne m ρ c main_arg5 (by decide)).trans (HostSide.entry1_arg5 m ρ c)
theorem kept_arg6 : W6 m ρ c (Proc.devRef .tc main_arg6) = (m ((c : Thread nD τ).loc main_arg6)) :=
  (W6_of_ne m ρ c main_arg6 (by decide)).trans (HostSide.entry1_arg6 m ρ c)
theorem kept_arg7 : W6 m ρ c (Proc.devRef .tc main_arg7) = (m ((c : Thread nD τ).loc main_arg7)) :=
  (W6_of_ne m ρ c main_arg7 (by decide)).trans (HostSide.entry1_arg7 m ρ c)
theorem kept_arg8 : W6 m ρ c (Proc.devRef .tc main_arg8) = (m ((c : Thread nD τ).loc main_arg8)) :=
  (W6_of_ne m ρ c main_arg8 (by decide)).trans (HostSide.entry1_arg8 m ρ c)

/-- After the second pipeline its output holds the reference's result before the final reshape. -/
theorem out2 : W8 m ρ c (Proc.devRef .tc main_v51)
    = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e48 : V7 m ρ c main_v48 = val_main_v51 (F := Ideal) (m ((c : Thread nD τ).loc main_arg0)) (m ((c : Thread nD τ).loc main_arg1)) (m ((c : Thread nD τ).loc main_arg2)) (m ((c : Thread nD τ).loc main_arg7)) (m ((c : Thread nD τ).loc main_arg8)) :=
    HostSide.agg2_eq (W6 m ρ c) _ _ _ _ _ (hidden1 m ρ c) (kept_v10 m ρ c) (kept_v14 m ρ c) (kept_arg7 m ρ c) (kept_arg8 m ρ c)
  have e3 : V7 m ρ c main_arg3 = (m ((c : Thread nD τ).loc main_arg3)) := (HostSide.between_arg3 (W6 m ρ c)).trans (kept_arg3 m ρ c)
  have e5 : V7 m ρ c main_arg5 = (m ((c : Thread nD τ).loc main_arg5)) := (HostSide.between_arg5 (W6 m ρ c)).trans (kept_arg5 m ρ c)
  have e49 : V7 m ρ c main_v49 = val_main_v53 (F := Ideal) (m ((c : Thread nD τ).loc main_arg4)) := by
    refine (HostSide.between_bias2 (W6 m ρ c)).trans ?_
    rw [kept_arg4 m ρ c]
    exact bias2_reshape _ _
  have e50 : V7 m ρ c main_v50 = val_main_v58 (F := Ideal) (m ((c : Thread nD τ).loc main_arg6)) := by
    refine (HostSide.between_bias3 (W6 m ρ c)).trans ?_
    rw [kept_arg6 m ρ c]
    exact bias3_reshape _ _
  refine (W8_arr m ρ c 5).trans ?_
  refine (Layer2.value (V7 m ρ) c).trans ?_
  rw [e48, e3, e49, e5, e50, layer2_eq]
  exact (out_eq _ _ _ _ _ _ _ _ _).symm

/-- THE RESULT: what the program returns is the reference's result, as a function of the argument arrays. -/
theorem result : W9 m ρ c (Proc.devRef .tc main_v52)
    = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (HostSide.tail_result (W8 m ρ c)).trans ?_
  rw [out2 m ρ c]
  rfl

end Cert.KernelIdeal.ResultValue

end
-- ==== Proof.lean ====
/-
  A two-layer graph convolution with a linear head: the kernel program against its jnp reference, equal as extended reals.

  Both programs compute, on the host and by the same operations, the two degree normalisers from the edge lists and
  each layer's aggregate D_in^(-1/2) · A · D_out^(-1/2) · h (a gather along the source list, a scatter-add along the
  destination list). They differ in where the dense part runs: the reference computes relu(agg · W + b) twice and then
  h · Wl + bl as whole-array host operations; the kernel program computes the first dense layer in one pipeline over 20
  row blocks of 5000 nodes, and the second dense layer fused with the head in another, rounding the operands to bf16
  on the way into each product. At the extended reals those roundings are the identity and a product into the zero
  accumulator is the plain sum over the contracted axis, so block by block the pipelines compute the reference's sums
  term for term; the blocks tile the arrays; and the host operations between and after the pipelines are the
  reference's own. Hence the two results are one function of the argument arrays (Proof/KernelValue.lean), with no
  algebraic law used beyond reading both sides at an index, and without the precondition.

  The three frames are the generated ones (the reference's is its run with the result dropped); the ideal pass rewrote
  nothing, so `preserves` is trivial.
-/
import proofs.«178030_j21002390078175_1_alg».proof.Defs
import proofs.«178030_j21002390078175_1_alg».proof.Proof.Gen.Kernel
import proofs.«178030_j21002390078175_1_alg».proof.Proof.Gen.Kernel.Skeleton
import proofs.«178030_j21002390078175_1_alg».proof.Proof.Gen.Kernel.Launch
import proofs.«178030_j21002390078175_1_alg».proof.Proof.Gen.Kernel.Points
import proofs.«178030_j21002390078175_1_alg».proof.Proof.Gen.Kernel.Frame
import proofs.«178030_j21002390078175_1_alg».proof.Proof.Gen.KernelIdeal
import proofs.«178030_j21002390078175_1_alg».proof.Proof.Gen.KernelIdeal.Skeleton
import proofs.«178030_j21002390078175_1_alg».proof.Proof.Gen.KernelIdeal.Launch
import proofs.«178030_j21002390078175_1_alg».proof.Proof.Gen.KernelIdeal.Points
import proofs.«178030_j21002390078175_1_alg».proof.Proof.Gen.KernelIdeal.Frame
import proofs.«178030_j21002390078175_1_alg».proof.Proof.Gen.ReferenceIdeal
import proofs.«178030_j21002390078175_1_alg».proof.Proof.Gen.Pre_finite_inputs
import proofs.«178030_j21002390078175_1_alg».proof.Proof.RefRunP
import proofs.«178030_j21002390078175_1_alg».proof.Proof.RefReadP
import proofs.«178030_j21002390078175_1_alg».proof.Proof.KernelRun
import proofs.«178030_j21002390078175_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the reference's result function of the arguments:
    the kernel program by its nine segments read one after the other, the reference by its run. -/
theorem algebraic : Cert.algebraic_KernelIdeal_ReferenceIdeal := by
  intro m ρ m' ρ' _ hagree
  refine ⟨fun c => Cert.ReferenceIdeal.ReadP.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.ResultValue.result m ρ c), (h c).2⟩)
      (Cert.KernelIdeal.RunResult.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8⟩ := hagree c
    rw [Cert.ReferenceIdeal.ReadP.val_main_v61_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
